-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32x4 : Shape := ⟨3, ![200000, 32, 4]⟩
abbrev S200000x4 : Shape := ⟨2, ![200000, 4]⟩
abbrev S200000 : Shape := ⟨1, ![200000]⟩
abbrev S_ : Shape := ⟨0, ![]⟩

class Facts : Prop where
  bcast_S_S200000x32x4 : S_.BroadcastsInDim S200000x32x4 (![] : Fin 0 → Fin S200000x32x4.rank)
  reducesTo_S200000x32x4_S_d0_1_2 : S200000x32x4.ReducesTo [0, 1, 2] S_
  h_S_ : 0 < S_.numel

variable [Facts]

def fn {F : FTy → Type} [FloatOps F] (main_arg0 : FVec F S200000x32x4 .f32) (main_arg1 : IVec S200000x4 32) (main_arg2 : IVec S200000 32) : IVec S_ 1 :=
  let main_v0 : FVec F S200000x32x4 .f32 := Host.absf main_arg0
  let main_cst : FVec F S_ .f32 := constant S_ .f32 0x7F800000#32
  let main_v1 : FVec F S200000x32x4 .f32 := broadcastInDim S200000x32x4 ![] bcast_S_S200000x32x4 main_cst
  let main_v2 : IVec S200000x32x4 1 := cmpf .olt main_v0 main_v1
  let main_c : IVec S_ 1 := constantI S_ 1 1#1
  let main_v3 : IVec S_ 1 := (fun x v => Host.reduce IntOp.andi x v reducesTo_S200000x32x4_S_d0_1_2 h_S_) main_v2 main_c
  main_v3
-- ==== Kernel.lean ====
abbrev S200000x32x4 : Shape := ⟨3, ![200000, 32, 4]⟩
abbrev S200000x4 : Shape := ⟨2, ![200000, 4]⟩
abbrev S200000 : Shape := ⟨1, ![200000]⟩
abbrev S200000x1 : Shape := ⟨2, ![200000, 1]⟩
abbrev S200000x9x32 : Shape := ⟨3, ![200000, 9, 32]⟩
abbrev S400x32x4 : Shape := ⟨3, ![400, 32, 4]⟩
abbrev S400x4 : Shape := ⟨2, ![400, 4]⟩
abbrev S400x1 : Shape := ⟨2, ![400, 1]⟩
abbrev S400x9x32 : Shape := ⟨3, ![400, 9, 32]⟩
abbrev S400x32x1 : Shape := ⟨3, ![400, 32, 1]⟩
abbrev S400x32 : Shape := ⟨2, ![400, 32]⟩
abbrev S400 : Shape := ⟨1, ![400]⟩
abbrev S400x1x32 : Shape := ⟨3, ![400, 1, 32]⟩

abbrev nBuf : Space → Nat
  | .hbm => 5
  | .vmem => 8
  | .smem => 0
  | _ => 0

abbrev bufTy : (tb : Table) → Fin (tcTables nBuf tb) → BufTy
  | .hbm, ⟨0, _⟩ => ⟨S200000x32x4, .f32⟩
  | .hbm, ⟨1, _⟩ => ⟨S200000x4, .i32⟩
  | .hbm, ⟨2, _⟩ => ⟨S200000, .i32⟩
  | .hbm, ⟨3, _⟩ => ⟨S200000x1, .i32⟩
  | .hbm, ⟨4, _⟩ => ⟨S200000x9x32, .f32⟩
  | .local _ .vmem, ⟨0, _⟩ => ⟨S400x32x4, .f32⟩
  | .local _ .vmem, ⟨1, _⟩ => ⟨S400x32x4, .f32⟩
  | .local _ .vmem, ⟨2, _⟩ => ⟨S400x4, .i32⟩
  | .local _ .vmem, ⟨3, _⟩ => ⟨S400x4, .i32⟩
  | .local _ .vmem, ⟨4, _⟩ => ⟨S400x1, .i32⟩
  | .local _ .vmem, ⟨5, _⟩ => ⟨S400x1, .i32⟩
  | .local _ .vmem, ⟨6, _⟩ => ⟨S400x9x32, .f32⟩
  | .local _ .vmem, ⟨7, _⟩ => ⟨S400x9x32, .f32⟩
  | _, _ => ⟨S200000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![500], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x9x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S200000_S200000x1 : S200000.ShapeCasts S200000x1
  inb_S400x32x4_S400x32x4_0_0_0 : ∀ a, (![0, 0, 0] : Fin 3 → Nat) a + S400x32x4.size a ≤ S400x32x4.size a
  h_S400x32x4 : 0 < S400x32x4.numel
  slices_S400x32x4_o0_0_0_S400x32x1 : S400x32x4.Slices ![0, 0, 0] S400x32x1
  shapeCasts_S400x32x1_S400x32 : S400x32x1.ShapeCasts S400x32
  slices_S400x32x4_o0_0_1_S400x32x1 : S400x32x4.Slices ![0, 0, 1] S400x32x1
  slices_S400x32x4_o0_0_2_S400x32x1 : S400x32x4.Slices ![0, 0, 2] S400x32x1
  slices_S400x32x4_o0_0_3_S400x32x1 : S400x32x4.Slices ![0, 0, 3] S400x32x1
  inb_S400x1_S400x1_0_0 : ∀ a, (![0, 0] : Fin 2 → Nat) a + S400x1.size a ≤ S400x1.size a
  h_S400x1 : 0 < S400x1.numel
  shapeCasts_S400x1_S400x1 : S400x1.ShapeCasts S400x1
  reduces_S400x32_S400 : S400x32.Reduces [1] S400
  shapeCasts_S400_S400x1 : S400.ShapeCasts S400x1
  inb_S400x4_S400x4_0_0 : ∀ a, (![0, 0] : Fin 2 → Nat) a + S400x4.size a ≤ S400x4.size a
  h_S400x4 : 0 < S400x4.numel
  slices_S400x4_o0_1_S400x1 : S400x4.Slices ![0, 1] S400x1
  slices_S400x4_o0_2_S400x1 : S400x4.Slices ![0, 2] S400x1
  broadcasts_S400x1_S400x32 : S400x1.Broadcasts S400x32
  iota_S400x32_d1_w32 : S400x32.Iotas .tc 32 [1]
  natLt_1_32 : 1 < 32
  inb_S400x9x32_S400x1x32_0_0_0 : ∀ a, (![0, 0, 0] : Fin 3 → Nat) a + S400x1x32.size a ≤ S400x9x32.size a
  h_S400x1x32 : 0 < S400x1x32.numel
  shapeCasts_S400x1x32_S400x32 : S400x1x32.ShapeCasts S400x32
  shapeCasts_S400x32_S400x1x32 : S400x32.ShapeCasts S400x1x32
  inb_S400x9x32_S400x1x32_0_1_0 : ∀ a, (![0, 1, 0] : Fin 3 → Nat) a + S400x1x32.size a ≤ S400x9x32.size a
  inb_S400x9x32_S400x1x32_0_2_0 : ∀ a, (![0, 2, 0] : Fin 3 → Nat) a + S400x1x32.size a ≤ S400x9x32.size a
  inb_S400x9x32_S400x1x32_0_3_0 : ∀ a, (![0, 3, 0] : Fin 3 → Nat) a + S400x1x32.size a ≤ S400x9x32.size a
  inb_S400x9x32_S400x1x32_0_4_0 : ∀ a, (![0, 4, 0] : Fin 3 → Nat) a + S400x1x32.size a ≤ S400x9x32.size a
  inb_S400x9x32_S400x1x32_0_5_0 : ∀ a, (![0, 5, 0] : Fin 3 → Nat) a + S400x1x32.size a ≤ S400x9x32.size a
  inb_S400x9x32_S400x1x32_0_6_0 : ∀ a, (![0, 6, 0] : Fin 3 → Nat) a + S400x1x32.size a ≤ S400x9x32.size a
  inb_S400x9x32_S400x1x32_0_7_0 : ∀ a, (![0, 7, 0] : Fin 3 → Nat) a + S400x1x32.size a ≤ S400x9x32.size a
  inb_S400x9x32_S400x1x32_0_8_0 : ∀ a, (![0, 8, 0] : Fin 3 → Nat) a + S400x1x32.size a ≤ S400x9x32.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32x4.size a ≤ S200000x32x4.size a
  hwx0_0 : ∀ i : grid0.Coords, EltTy.bits .f32 = 32 ∨ (Rect.block (s := S200000x32x4) S400x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x4.size a ≤ S200000x4.size a
  hwx0_1 : ∀ i : grid0.Coords, EltTy.bits .i32 = 32 ∨ (Rect.block (s := S200000x4) S400x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S200000x1.size a
  hwx0_2 : ∀ i : grid0.Coords, EltTy.bits .i32 = 32 ∨ (Rect.block (s := S200000x1) S400x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x9x32.size a ≤ S200000x9x32.size a
  hwx0_3 : ∀ i : grid0.Coords, EltTy.bits .f32 = 32 ∨ (Rect.block (s := S200000x9x32) S400x9x32.size (cc0_transform_3 i) (hinb0_3 i)).WholeWords (EltTy.packing .f32)

variable [Facts₀]

abbrev win0_0 : Pipeline.Window sig grid0 :=
  Pipeline.Window.ofSpec (Memref.whole main_arg0) S400x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S400x9x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x32x4 : Shape := ⟨3, ![200000, 32, 4]⟩
abbrev S200000x4 : Shape := ⟨2, ![200000, 4]⟩
abbrev S200000 : Shape := ⟨1, ![200000]⟩
abbrev S200000x32x3 : Shape := ⟨3, ![200000, 32, 3]⟩
abbrev S_ : Shape := ⟨0, ![]⟩
abbrev S200000x3 : Shape := ⟨2, ![200000, 3]⟩
abbrev S200000x1x3 : Shape := ⟨3, ![200000, 1, 3]⟩
abbrev S200000x1x1 : Shape := ⟨3, ![200000, 1, 1]⟩
abbrev S200000x1 : Shape := ⟨2, ![200000, 1]⟩
abbrev S200000x32x1 : Shape := ⟨3, ![200000, 32, 1]⟩
abbrev S200000x32x2 : Shape := ⟨3, ![200000, 32, 2]⟩
abbrev S200000x32x9 : Shape := ⟨3, ![200000, 32, 9]⟩
abbrev S32 : Shape := ⟨1, ![32]⟩
abbrev S1x32 : Shape := ⟨2, ![1, 32]⟩
abbrev S200000x32 : Shape := ⟨2, ![200000, 32]⟩
abbrev S200000x9x32 : Shape := ⟨3, ![200000, 9, 32]⟩

abbrev nBuf : Space → Nat
  | .hbm => 51
  | .vmem => 0
  | .smem => 0
  | _ => 0

abbrev bufTy : (tb : Table) → Fin (tcTables nBuf tb) → BufTy
  | .hbm, ⟨0, _⟩ => ⟨S200000x32x4, .f32⟩
  | .hbm, ⟨1, _⟩ => ⟨S200000x4, .i32⟩
  | .hbm, ⟨2, _⟩ => ⟨S200000, .i32⟩
  | .hbm, ⟨3, _⟩ => ⟨S200000, .f32⟩
  | .hbm, ⟨4, _⟩ => ⟨S200000x32x3, .f32⟩
  | .hbm, ⟨5, _⟩ => ⟨S_, .f32⟩
  | .hbm, ⟨6, _⟩ => ⟨S200000x3, .f32⟩
  | .hbm, ⟨7, _⟩ => ⟨S200000x1x3, .f32⟩
  | .hbm, ⟨8, _⟩ => ⟨S200000x1x1, .f32⟩
  | .hbm, ⟨9, _⟩ => ⟨S200000x1x3, .f32⟩
  | .hbm, ⟨10, _⟩ => ⟨S200000x1x3, .f32⟩
  | .hbm, ⟨11, _⟩ => ⟨S200000x32x3, .f32⟩
  | .hbm, ⟨12, _⟩ => ⟨S200000x32x3, .f32⟩
  | .hbm, ⟨13, _⟩ => ⟨S200000x32x3, .f32⟩
  | .hbm, ⟨14, _⟩ => ⟨S200000x1, .i32⟩
  | .hbm, ⟨15, _⟩ => ⟨S200000x1x1, .i32⟩
  | .hbm, ⟨16, _⟩ => ⟨S200000x1x1, .f32⟩
  | .hbm, ⟨17, _⟩ => ⟨S_, .f32⟩
  | .hbm, ⟨18, _⟩ => ⟨S200000x1x1, .f32⟩
  | .hbm, ⟨19, _⟩ => ⟨S200000x1x1, .f32⟩
  | .hbm, ⟨20, _⟩ => ⟨S_, .f32⟩
  | .hbm, ⟨21, _⟩ => ⟨S200000x1x1, .f32⟩
  | .hbm, ⟨22, _⟩ => ⟨S200000x1x1, .f32⟩
  | .hbm, ⟨23, _⟩ => ⟨S200000x1, .i32⟩
  | .hbm, ⟨24, _⟩ => ⟨S200000x1x1, .i32⟩
  | .hbm, ⟨25, _⟩ => ⟨S200000x1x1, .f32⟩
  | .hbm, ⟨26, _⟩ => ⟨S_, .f32⟩
  | .hbm, ⟨27, _⟩ => ⟨S200000x1x1, .f32⟩
  | .hbm, ⟨28, _⟩ => ⟨S200000x1x1, .f32⟩
  | .hbm, ⟨29, _⟩ => ⟨S_, .f32⟩
  | .hbm, ⟨30, _⟩ => ⟨S200000x1x1, .f32⟩
  | .hbm, ⟨31, _⟩ => ⟨S200000x1x1, .f32⟩
  | .hbm, ⟨32, _⟩ => ⟨S200000x32x1, .f32⟩
  | .hbm, ⟨33, _⟩ => ⟨S200000x32x1, .f32⟩
  | .hbm, ⟨34, _⟩ => ⟨S200000x32x1, .f32⟩
  | .hbm, ⟨35, _⟩ => ⟨S200000x32x1, .f32⟩
  | .hbm, ⟨36, _⟩ => ⟨S200000x32x1, .f32⟩
  | .hbm, ⟨37, _⟩ => ⟨S200000x32x1, .f32⟩
  | .hbm, ⟨38, _⟩ => ⟨S200000x32x2, .f32⟩
  | .hbm, ⟨39, _⟩ => ⟨S200000x32x9, .f32⟩
  | .hbm, ⟨40, _⟩ => ⟨S32, .i32⟩
  | .hbm, ⟨41, _⟩ => ⟨S1x32, .i32⟩
  | .hbm, ⟨42, _⟩ => ⟨S200000x1, .i32⟩
  | .hbm, ⟨43, _⟩ => ⟨S200000x32, .i32⟩
  | .hbm, ⟨44, _⟩ => ⟨S200000x32, .i32⟩
  | .hbm, ⟨45, _⟩ => ⟨S200000x32, .i1⟩
  | .hbm, ⟨46, _⟩ => ⟨S200000x32x1, .i1⟩
  | .hbm, ⟨47, _⟩ => ⟨S200000x32x1, .f32⟩
  | .hbm, ⟨48, _⟩ => ⟨S200000x32x9, .f32⟩
  | .hbm, ⟨49, _⟩ => ⟨S200000x32x9, .f32⟩
  | .hbm, ⟨50, _⟩ => ⟨S200000x9x32, .f32⟩
  | _, _ => ⟨S200000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]

class Facts₀ : Prop where
  slices_S200000x32x4_S200000x32x3_0_0_0 : S200000x32x4.Slices ![0, 0, 0] S200000x32x3
  reducesTo_S200000x32x3_S200000x3_d1 : S200000x32x3.ReducesTo [1] S200000x3
  h_S_ : 0 < S_.numel
  bcast_S200000x3_S200000x1x3_0_2 : S200000x3.BroadcastsInDim S200000x1x3 (![0, 2] : Fin 2 → Fin S200000x1x3.rank)
  bcast_S200000_S200000x1x1_0 : S200000.BroadcastsInDim S200000x1x1 (![0] : Fin 1 → Fin S200000x1x1.rank)
  bcast_S200000x1x1_S200000x1x3_0_1_2 : S200000x1x1.BroadcastsInDim S200000x1x3 (![0, 1, 2] : Fin 3 → Fin S200000x1x3.rank)
  bcast_S200000x1x3_S200000x32x3_0_1_2 : S200000x1x3.BroadcastsInDim S200000x32x3 (![0, 1, 2] : Fin 3 → Fin S200000x32x3.rank)
  slices_S200000x4_S200000x1_0_1 : S200000x4.Slices ![0, 1] S200000x1
  bcast_S200000x1_S200000x1x1_0_2 : S200000x1.BroadcastsInDim S200000x1x1 (![0, 2] : Fin 2 → Fin S200000x1x1.rank)
  bcast_S_S200000x1x1 : S_.BroadcastsInDim S200000x1x1 (![] : Fin 0 → Fin S200000x1x1.rank)
  slices_S200000x4_S200000x1_0_2 : S200000x4.Slices ![0, 2] S200000x1
  slices_S200000x32x4_S200000x32x1_0_0_0 : S200000x32x4.Slices ![0, 0, 0] S200000x32x1
  bcast_S200000x1x1_S200000x32x1_0_1_2 : S200000x1x1.BroadcastsInDim S200000x32x1 (![0, 1, 2] : Fin 3 → Fin S200000x32x1.rank)
  slices_S200000x32x4_S200000x32x1_0_0_1 : S200000x32x4.Slices ![0, 0, 1] S200000x32x1
  slices_S200000x32x4_S200000x32x2_0_0_2 : S200000x32x4.Slices ![0, 0, 2] S200000x32x2
  concatenates_S200000x32x1_S200000x32x1_S200000x32x2_S200000x32x3_S200000x32x1_S200000x32x1_S200000x32x9_d2 : Shape.Concatenates [S200000x32x1, S200000x32x1, S200000x32x2, S200000x32x3, S200000x32x1, S200000x32x1] S200000x32x9 2
  bcast_S32_S1x32_1 : S32.BroadcastsInDim S1x32 (![1] : Fin 1 → Fin S1x32.rank)
  bcast_S200000_S200000x1_0 : S200000.BroadcastsInDim S200000x1 (![0] : Fin 1 → Fin S200000x1.rank)
  bcast_S1x32_S200000x32_0_1 : S1x32.BroadcastsInDim S200000x32 (![0, 1] : Fin 2 → Fin S200000x32.rank)
  bcast_S200000x1_S200000x32_0_1 : S200000x1.BroadcastsInDim S200000x32 (![0, 1] : Fin 2 → Fin S200000x32.rank)
  bcast_S200000x32_S200000x32x1_0_1 : S200000x32.BroadcastsInDim S200000x32x1 (![0, 1] : Fin 2 → Fin S200000x32x1.rank)
  bcast_S200000x32x1_S200000x32x9_0_1_2 : S200000x32x1.BroadcastsInDim S200000x32x9 (![0, 1, 2] : Fin 3 → Fin S200000x32x9.rank)
  transposes_S200000x32x9_S200000x9x32_0_2_1 : S200000x32x9.Transposes [0, 2, 1] S200000x9x32

variable [Facts₀]

class Facts : Prop extends Facts₀ where

variable [Facts]
-- ==== Proof.Pillar.lean ====
/-
  One pillar's nine feature rows, as a function of that pillar alone.

  A pillar holds 32 point slots of four numbers (x, y, z, w), the four integer words of its cell, and a count word
  saying how many leading slots are real points. Its features, per slot `j`:
    rows 0 and 7   x - cx        cx = (cell word 1) * 0.16 + 0.08, the centre of the pillar's column,
    rows 1 and 8   y - cy        cy = (cell word 2) * 0.16 + 0.08 (the same offset 0.08 as for x),
    row 2          z,   row 3   w,
    rows 4, 5, 6   x, y, z less the pillar's mean of that coordinate: the sum over ALL 32 slots divided by the count,
  each multiplied by 1 on the slots below the count and by 0 on the padding slots.
  Everything is on the extended reals: the two scale words 0.16 and 0.08 are kept as f32 words (the same words on
  both sides, never evaluated), the division is the extended reals' total one, and an integer word is read signed.
  An array of `n` pillars has the features of each of its pillars; so has any block of consecutive pillars.
-/
import Idealize.ShloMosaic.PureOps.Ideal
import Idealize.ShloMosaic.Lib.ValueIdx

noncomputable section

namespace Cert.Pillar

open Idealize.ShloMosaic Idealize.ShloMosaic.ValueIdx

/-- The centre of cell number `w` along one axis: `w * 0.16 + 0.08`, the integer read signed. -/
def centre (w : BitVec 32) : EReal :=
  ((w.toInt : ℝ) : EReal) * Ideal.ofBits .f32 0x3E23D70A#32 + Ideal.ofBits .f32 0x3DA3D70A#32

/-- The mean of one coordinate over a pillar: the sum over all 32 slots divided by the count read signed. -/
def mean (col : Fin 32 → EReal) (cnt : BitVec 32) : EReal :=
  Ideal.div (∑ k : Fin 32, col k) ((cnt.toInt : ℝ) : EReal)

/-- 1 on the slots below the count (compared signed), 0 on the padding slots. -/
def valid (cnt : BitVec 32) (j : Fin 32) : EReal :=
  (((IntOp.cmpi .slt (BitVec.ofNat 32 j.val) cnt).toNat : ℝ) : EReal)

/-- Row `ch` of a pillar's features at slot `j`, before the padding slots are zeroed. -/
def channel (pts : Fin 32 → Fin 4 → EReal) (cell : Fin 4 → BitVec 32) (cnt : BitVec 32) (j : Fin 32) : Fin 9 → EReal
  | ⟨0, _⟩ => pts j 0 - centre (cell 1)
  | ⟨1, _⟩ => pts j 1 - centre (cell 2)
  | ⟨2, _⟩ => pts j 2
  | ⟨3, _⟩ => pts j 3
  | ⟨4, _⟩ => pts j 0 - mean (fun k => pts k 0) cnt
  | ⟨5, _⟩ => pts j 1 - mean (fun k => pts k 1) cnt
  | ⟨6, _⟩ => pts j 2 - mean (fun k => pts k 2) cnt
  | ⟨7, _⟩ => pts j 0 - centre (cell 1)
  | ⟨8, _⟩ => pts j 1 - centre (cell 2)
  | ⟨_ + 9, h⟩ => absurd h (by omega)

/-- A pillar's feature at row `ch`, slot `j`. -/
def feat (pts : Fin 32 → Fin 4 → EReal) (cell : Fin 4 → BitVec 32) (cnt : BitVec 32) (ch : Fin 9) (j : Fin 32) : EReal :=
  channel pts cell cnt j ch * valid cnt j

/-- A pillar's features depend on that pillar's points, cell words and count only. -/
theorem feat_congr {pts pts' : Fin 32 → Fin 4 → EReal} {cell cell' : Fin 4 → BitVec 32} {cnt cnt' : BitVec 32}
    (h0 : ∀ k a, pts k a = pts' k a) (h1 : ∀ a, cell a = cell' a) (h2 : cnt = cnt') (ch : Fin 9) (j : Fin 32) :
    feat pts cell cnt ch j = feat pts' cell' cnt' ch j := by
  obtain rfl : pts = pts' := funext fun k => funext fun a => h0 k a
  obtain rfl : cell = cell' := funext h1
  subst h2
  rfl

/-- The features of `n` pillars: entry (p, ch, j) is pillar `p`'s feature at row `ch`, slot `j`. -/
def features {n : ℕ} (P : (⟨3, ![n, 32, 4]⟩ : Shape).Idx → EReal) (C : (⟨2, ![n, 4]⟩ : Shape).Idx → BitVec 32)
    (cnt : Fin n → BitVec 32) : (⟨3, ![n, 9, 32]⟩ : Shape).Idx → EReal :=
  fun i => feat (fun k a => P (ix3 (i 0 : Fin n) k a)) (fun a => C (ix2 (i 0 : Fin n) a)) (cnt (i 0)) (i 1) (i 2)

theorem features_apply {n : ℕ} (P : (⟨3, ![n, 32, 4]⟩ : Shape).Idx → EReal) (C : (⟨2, ![n, 4]⟩ : Shape).Idx → BitVec 32)
    (cnt : Fin n → BitVec 32) (p : Fin n) (ch : Fin 9) (j : Fin 32) :
    features P C cnt (ix3 p ch j) = feat (fun k a => P (ix3 p k a)) (fun a => C (ix2 p a)) (cnt p) ch j := rfl

end Cert.Pillar

end
-- ==== Proof.RefRead.lean ====
/-
  The reference's result array, entry by entry, is each pillar's features.

  Entry (p, ch, j) of the result is entry (p, j, ch) of the product of two arrays. The second factor is the slot
  mask: the count of pillar `p` spread over the 32 slots and the 9 rows, compared with the slot number `j`, the
  one-bit answer read as 0 or 1. The first factor is six arrays laid side by side along the last axis, of widths
  1, 1, 2, 3, 1, 1: row `ch` therefore comes from the piece whose span holds `ch` — rows 0 and 7 from x less the
  column's centre, rows 1 and 8 from y less the row's centre, rows 2 and 3 from the slice (z, w) of the points,
  rows 4 to 6 from the three coordinates less their means. A mean is the host's sum over the slot axis, started
  from the zero word, divided by the count read signed; the zero start adds nothing on the extended reals.
-/
import proofs.«151679_j24386824307259_2_alg».proof.Proof.Gen.ReferenceIdeal.Read
import proofs.«151679_j24386824307259_2_alg».proof.Proof.Pillar
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (x0 : (⟨S200000x32x4, .f32⟩ : BufTy).Contents (Elt Ideal)) (x1 : (⟨S200000x4, .i32⟩ : BufTy).Contents (Elt Ideal))
  (x2 : (⟨S200000, .i32⟩ : BufTy).Contents (Elt Ideal))

/-! ## The slot mask -/

/-- The slot numbers 0..31, spread over the pillars, read at (p, j): the word `j`. -/
theorem slot_number (p : Fin 200000) (j : Fin 32) : val_main_v35 (F := Ideal) (ix2 p j) = BitVec.ofNat 32 j.val := by
  rw [val_main_v35_apply, val_main_v33_apply, val_main_v32_apply]

/-- The counts, spread over the slots, read at (p, j): pillar `p`'s count. -/
theorem count_spread (p : Fin 200000) (j : Fin 32) : val_main_v36 (F := Ideal) x2 (ix2 p j) = x2 (ix1 p) := by
  rw [val_main_v36_apply, val_main_v34_apply]
  exact congrArg x2 (funext fun a => Fin.ext (by match a with | ⟨0, _⟩ => rfl))

/-- The mask at (p, j, ch), whatever the row: 1 when slot `j` is below pillar `p`'s count, else 0. -/
theorem mask_apply (p : Fin 200000) (j : Fin 32) (ch : Fin 9) :
    val_main_v40 (F := Ideal) x2 (ix3 p j ch) = Pillar.valid (x2 (ix1 p)) j := by
  rw [val_main_v40_apply, val_main_v39_apply, val_main_v38_apply, val_main_v37_apply]
  have e : idx_main_v38 (idx_main_v40 (ix3 p j ch)) = ix2 p j :=
    funext fun a => Fin.ext (by match a with | ⟨0, _⟩ => rfl | ⟨1, _⟩ => rfl)
  rw [e, slot_number, count_spread]
  rfl

/-! ## The cell centres -/

/-- The centre of pillar `p`'s column: its cell word 1 times 0.16 plus 0.08. -/
theorem centre_x (p : Fin 200000) :
    val_main_v16 (F := Ideal) x1 (ix3 p (0 : Fin 1) (0 : Fin 1)) = Pillar.centre (x1 (ix2 p 1)) := by
  rw [val_main_v16_apply, val_main_v14_apply, val_main_v15_apply, val_main_v13_apply, val_main_v12_apply,
    val_main_v11_apply, val_main_v10_apply, val_main_cst_0_apply, val_main_cst_1_apply]
  have e : idx_main_v10 (idx_main_v11 (ix3 p (0 : Fin 1) (0 : Fin 1))) = ix2 p (1 : Fin 4) :=
    funext fun a => Fin.ext (by match a with | ⟨0, _⟩ => rfl | ⟨1, _⟩ => rfl)
  rw [e]
  rfl

/-- The centre of pillar `p`'s row: its cell word 2 times 0.16 plus the same 0.08. -/
theorem centre_y (p : Fin 200000) :
    val_main_v23 (F := Ideal) x1 (ix3 p (0 : Fin 1) (0 : Fin 1)) = Pillar.centre (x1 (ix2 p 2)) := by
  rw [val_main_v23_apply, val_main_v21_apply, val_main_v22_apply, val_main_v20_apply, val_main_v19_apply,
    val_main_v18_apply, val_main_v17_apply, val_main_cst_2_apply, val_main_cst_3_apply]
  have e : idx_main_v17 (idx_main_v18 (ix3 p (0 : Fin 1) (0 : Fin 1))) = ix2 p (2 : Fin 4) :=
    funext fun a => Fin.ext (by match a with | ⟨0, _⟩ => rfl | ⟨1, _⟩ => rfl)
  rw [e]
  rfl

/-! ## The six pieces -/

/-- x less the column's centre. -/
theorem off_x_apply (p : Fin 200000) (j : Fin 32) :
    val_main_v26 (F := Ideal) x0 x1 (ix3 p j (0 : Fin 1)) = x0 (ix3 p j 0) - Pillar.centre (x1 (ix2 p 1)) := by
  rw [val_main_v26_apply, val_main_v24_apply, val_main_v25_apply]
  have e1 : idx_main_v24 (ix3 p j (0 : Fin 1)) = ix3 p j (0 : Fin 4) :=
    funext fun a => Fin.ext (by match a with | ⟨0, _⟩ => rfl | ⟨1, _⟩ => rfl | ⟨2, _⟩ => rfl)
  have e2 : idx_main_v25 (ix3 p j (0 : Fin 1)) = ix3 p (0 : Fin 1) (0 : Fin 1) :=
    funext fun a => Fin.ext (by match a with | ⟨0, _⟩ => rfl | ⟨1, _⟩ => rfl | ⟨2, _⟩ => rfl)
  rw [e1, e2, centre_x]
  rfl

/-- y less the row's centre. -/
theorem off_y_apply (p : Fin 200000) (j : Fin 32) :
    val_main_v29 (F := Ideal) x0 x1 (ix3 p j (0 : Fin 1)) = x0 (ix3 p j 1) - Pillar.centre (x1 (ix2 p 2)) := by
  rw [val_main_v29_apply, val_main_v27_apply, val_main_v28_apply]
  have e1 : idx_main_v27 (ix3 p j (0 : Fin 1)) = ix3 p j (1 : Fin 4) :=
    funext fun a => Fin.ext (by match a with | ⟨0, _⟩ => rfl | ⟨1, _⟩ => rfl | ⟨2, _⟩ => rfl)
  have e2 : idx_main_v28 (ix3 p j (0 : Fin 1)) = ix3 p (0 : Fin 1) (0 : Fin 1) :=
    funext fun a => Fin.ext (by match a with | ⟨0, _⟩ => rfl | ⟨1, _⟩ => rfl | ⟨2, _⟩ => rfl)
  rw [e1, e2, centre_y]
  rfl

/-- The slice (z, w) of the points: coordinate `2 + b`. -/
theorem raw_apply (p : Fin 200000) (j : Fin 32) (b : Fin 2) (a : Fin 4) (h : a.val = 2 + b.val) :
    val_main_v30 (F := Ideal) x0 (ix3 p j b) = x0 (ix3 p j a) := by
  rw [val_main_v30_apply]
  exact congrArg x0 (funext fun d => Fin.ext (by
    match d with
    | ⟨0, _⟩ => rfl
    | ⟨1, _⟩ => rfl
    | ⟨2, _⟩ => show 2 + b.val = a.val; exact h.symm))

/-- A coordinate less its mean over the pillar: the host's sum over the slots from the zero word, over the count. -/
theorem centred_apply (p : Fin 200000) (j : Fin 32) (a : Fin 3) (a' : Fin 4) (h : a'.val = a.val) :
    val_main_v9 (F := Ideal) x0 x2 (ix3 p j a)
      = x0 (ix3 p j a') - Pillar.mean (fun k => x0 (ix3 p k a')) (x2 (ix1 p)) := by
  rw [val_main_v9_apply, val_main_v7_apply, val_main_v8_apply, val_main_v6_apply, val_main_v3_apply, val_main_v5_apply,
    val_main_v4_apply, val_main_v0_apply, val_main_v2_apply]
  have e7 : idx_main_v7 (ix3 p j a) = ix3 p j a' :=
    funext fun d => Fin.ext (by
      match d with
      | ⟨0, _⟩ => rfl
      | ⟨1, _⟩ => rfl
      | ⟨2, _⟩ => show a.val = a'.val; exact h.symm)
  have ec : idx_main_v4 (idx_main_v5 (idx_main_v8 (ix3 p j a))) = ix1 p :=
    funext fun d => Fin.ext (by match d with | ⟨0, _⟩ => rfl)
  have es : ∀ k : Fin 32,
      val_main_v1 (F := Ideal) x0 (idx_main_v2 (idx_main_v3 (idx_main_v8 (ix3 p j a))) k) = x0 (ix3 p k a') := fun k => by
    rw [val_main_v1_apply]
    exact congrArg x0 (funext fun d => Fin.ext (by
      match d with
      | ⟨0, _⟩ => rfl
      | ⟨1, _⟩ => rfl
      | ⟨2, _⟩ => show a.val = a'.val; exact h.symm))
  rw [e7, ec, Finset.sum_congr rfl (fun k _ => es k)]
  show x0 (ix3 p j a') - Ideal.div (Ideal.ofBits .f32 0x00000000#32 + ∑ k : Fin 32, x0 (ix3 p k a'))
      (((x2 (ix1 p)).toInt : ℝ) : EReal) = _
  rw [Ideal.ofBits_zero_f32, zero_add]
  rfl

/-! ## The pieces side by side -/

section Join

variable (u0 u1 : S200000x32x1.Idx → EReal) (u2 : S200000x32x2.Idx → EReal) (u3 : S200000x32x3.Idx → EReal)
  (u4 u5 : S200000x32x1.Idx → EReal)

/-- Six arrays of widths 1, 1, 2, 3, 1, 1 along the last axis, in the order they are laid side by side. -/
abbrev six : List ((s : Shape) × (s.Idx → EReal)) :=
  [⟨S200000x32x1, u0⟩, ⟨S200000x32x1, u1⟩, ⟨S200000x32x2, u2⟩, ⟨S200000x32x3, u3⟩, ⟨S200000x32x1, u4⟩, ⟨S200000x32x1, u5⟩]

/-- The six laid side by side. -/
abbrev joined : S200000x32x9.Idx → EReal :=
  concatenate S200000x32x9 2 (six u0 u1 u2 u3 u4 u5)
    concatenates_S200000x32x1_S200000x32x1_S200000x32x2_S200000x32x3_S200000x32x1_S200000x32x1_S200000x32x9_d2

/-- Off the joined axis an index of a piece and the index of the whole agree. -/
theorem off_axis {w : ℕ} (p : Fin 200000) (j : Fin 32) (c : Fin w) (ch : Fin 9)
    (b : Fin (⟨3, ![200000, 32, w]⟩ : Shape).rank)
    (hb : b.cast (rfl : (⟨3, ![200000, 32, w]⟩ : Shape).rank = S200000x32x9.rank) ≠ (2 : Fin 3)) :
    ((ix3 p j c : (⟨3, ![200000, 32, w]⟩ : Shape).Idx) b).val = ((ix3 p j ch : S200000x32x9.Idx) (b.cast rfl)).val := by
  match b with
  | ⟨0, _⟩ => rfl
  | ⟨1, _⟩ => rfl
  | ⟨2, _⟩ => exact absurd rfl hb

theorem joined_0 (p : Fin 200000) (j : Fin 32) : joined u0 u1 u2 u3 u4 u5 (ix3 p j 0) = u0 (ix3 p j 0) :=
  concatenate_apply_piece (t := S200000x32x9) 2 (six u0 u1 u2 u3 u4 u5) _ (ix3 p j 0) 0 (by show (0 : ℕ) < 6; decide) S200000x32x1 u0 rfl rfl 0 rfl
    (ix3 p j 0) (off_axis p j 0 0) rfl
theorem joined_1 (p : Fin 200000) (j : Fin 32) : joined u0 u1 u2 u3 u4 u5 (ix3 p j 1) = u1 (ix3 p j 0) :=
  concatenate_apply_piece (t := S200000x32x9) 2 (six u0 u1 u2 u3 u4 u5) _ (ix3 p j 1) 1 (by show (1 : ℕ) < 6; decide) S200000x32x1 u1 rfl rfl 1 rfl
    (ix3 p j 0) (off_axis p j 0 1) rfl
theorem joined_2 (p : Fin 200000) (j : Fin 32) : joined u0 u1 u2 u3 u4 u5 (ix3 p j 2) = u2 (ix3 p j 0) :=
  concatenate_apply_piece (t := S200000x32x9) 2 (six u0 u1 u2 u3 u4 u5) _ (ix3 p j 2) 2 (by show (2 : ℕ) < 6; decide) S200000x32x2 u2 rfl rfl 2 rfl
    (ix3 p j 0) (off_axis p j 0 2) rfl
theorem joined_3 (p : Fin 200000) (j : Fin 32) : joined u0 u1 u2 u3 u4 u5 (ix3 p j 3) = u2 (ix3 p j 1) :=
  concatenate_apply_piece (t := S200000x32x9) 2 (six u0 u1 u2 u3 u4 u5) _ (ix3 p j 3) 2 (by show (2 : ℕ) < 6; decide) S200000x32x2 u2 rfl rfl 2 rfl
    (ix3 p j 1) (off_axis p j 1 3) rfl
theorem joined_4 (p : Fin 200000) (j : Fin 32) : joined u0 u1 u2 u3 u4 u5 (ix3 p j 4) = u3 (ix3 p j 0) :=
  concatenate_apply_piece (t := S200000x32x9) 2 (six u0 u1 u2 u3 u4 u5) _ (ix3 p j 4) 3 (by show (3 : ℕ) < 6; decide) S200000x32x3 u3 rfl rfl 4 rfl
    (ix3 p j 0) (off_axis p j 0 4) rfl
theorem joined_5 (p : Fin 200000) (j : Fin 32) : joined u0 u1 u2 u3 u4 u5 (ix3 p j 5) = u3 (ix3 p j 1) :=
  concatenate_apply_piece (t := S200000x32x9) 2 (six u0 u1 u2 u3 u4 u5) _ (ix3 p j 5) 3 (by show (3 : ℕ) < 6; decide) S200000x32x3 u3 rfl rfl 4 rfl
    (ix3 p j 1) (off_axis p j 1 5) rfl
theorem joined_6 (p : Fin 200000) (j : Fin 32) : joined u0 u1 u2 u3 u4 u5 (ix3 p j 6) = u3 (ix3 p j 2) :=
  concatenate_apply_piece (t := S200000x32x9) 2 (six u0 u1 u2 u3 u4 u5) _ (ix3 p j 6) 3 (by show (3 : ℕ) < 6; decide) S200000x32x3 u3 rfl rfl 4 rfl
    (ix3 p j 2) (off_axis p j 2 6) rfl
theorem joined_7 (p : Fin 200000) (j : Fin 32) : joined u0 u1 u2 u3 u4 u5 (ix3 p j 7) = u4 (ix3 p j 0) :=
  concatenate_apply_piece (t := S200000x32x9) 2 (six u0 u1 u2 u3 u4 u5) _ (ix3 p j 7) 4 (by show (4 : ℕ) < 6; decide) S200000x32x1 u4 rfl rfl 7 rfl
    (ix3 p j 0) (off_axis p j 0 7) rfl
theorem joined_8 (p : Fin 200000) (j : Fin 32) : joined u0 u1 u2 u3 u4 u5 (ix3 p j 8) = u5 (ix3 p j 0) :=
  concatenate_apply_piece (t := S200000x32x9) 2 (six u0 u1 u2 u3 u4 u5) _ (ix3 p j 8) 5 (by show (5 : ℕ) < 6; decide) S200000x32x1 u5 rfl rfl 8 rfl
    (ix3 p j 0) (off_axis p j 0 8) rfl

end Join

/-- Row `ch` of the six pieces laid side by side is the pillar's row `ch` before the padding is zeroed. -/
theorem joined_apply (p : Fin 200000) (j : Fin 32) (ch : Fin 9) :
    val_main_v31 (F := Ideal) x0 x1 x2 (ix3 p j ch)
      = Pillar.channel (fun k a => x0 (ix3 p k a)) (fun a => x1 (ix2 p a)) (x2 (ix1 p)) j ch := by
  show joined (val_main_v26 (F := Ideal) x0 x1) (val_main_v29 (F := Ideal) x0 x1) (val_main_v30 (F := Ideal) x0)
    (val_main_v9 (F := Ideal) x0 x2) (val_main_v26 (F := Ideal) x0 x1) (val_main_v29 (F := Ideal) x0 x1) (ix3 p j ch) = _
  match ch with
  | ⟨0, _⟩ => exact (joined_0 _ _ _ _ _ _ p j).trans (off_x_apply x0 x1 p j)
  | ⟨1, _⟩ => exact (joined_1 _ _ _ _ _ _ p j).trans (off_y_apply x0 x1 p j)
  | ⟨2, _⟩ => exact (joined_2 _ _ _ _ _ _ p j).trans (raw_apply x0 p j 0 2 rfl)
  | ⟨3, _⟩ => exact (joined_3 _ _ _ _ _ _ p j).trans (raw_apply x0 p j 1 3 rfl)
  | ⟨4, _⟩ => exact (joined_4 _ _ _ _ _ _ p j).trans (centred_apply x0 x2 p j 0 0 rfl)
  | ⟨5, _⟩ => exact (joined_5 _ _ _ _ _ _ p j).trans (centred_apply x0 x2 p j 1 1 rfl)
  | ⟨6, _⟩ => exact (joined_6 _ _ _ _ _ _ p j).trans (centred_apply x0 x2 p j 2 2 rfl)
  | ⟨7, _⟩ => exact (joined_7 _ _ _ _ _ _ p j).trans (off_x_apply x0 x1 p j)
  | ⟨8, _⟩ => exact (joined_8 _ _ _ _ _ _ p j).trans (off_y_apply x0 x1 p j)
  | ⟨_ + 9, h⟩ => exact absurd h (by omega)

/-! ## The result -/

/-- Entry (p, ch, j) of the reference's result is pillar `p`'s feature at row `ch`, slot `j`. -/
theorem result_apply (p : Fin 200000) (ch : Fin 9) (j : Fin 32) :
    val_main_v42 (F := Ideal) x0 x1 x2 (ix3 p ch j)
      = Pillar.feat (fun k a => x0 (ix3 p k a)) (fun a => x1 (ix2 p a)) (x2 (ix1 p)) ch j := by
  rw [val_main_v42_apply, val_main_v41_apply]
  have e : idx_main_v42 (ix3 p ch j) = ix3 p j ch :=
    funext fun a => Fin.ext (by match a with | ⟨0, _⟩ => rfl | ⟨1, _⟩ => rfl | ⟨2, _⟩ => rfl)
  rw [e, mask_apply, joined_apply]
  rfl

/-- The reference's result array is the features of the 200000 pillars. -/
theorem result_eq :
    val_main_v42 (F := Ideal) x0 x1 x2 = Pillar.features (n := 200000) x0 x1 (fun p => x2 (ix1 p)) := by
  funext i
  obtain ⟨p, ch, j, rfl⟩ : ∃ (p : Fin 200000) (ch : Fin 9) (j : Fin 32), i = ix3 p ch j := ⟨i 0, i 1, i 2, eq_ix3 i⟩
  rw [Pillar.features_apply]
  exact result_apply x0 x1 x2 p ch j

end Cert.ReferenceIdeal.RefValue

end
-- ==== Proof.LibColumnLayout.lean ====
/-
  A vector kept as a column, and a column spread over a row, read at an entry.

  `[a] → [a, 1]` by a shape cast: entry `(i, u)` of the column is entry `i` of the vector (both sit at row-major
  position `i`, the unit coordinate `u` being `0`). `[a, 1] → [a, b]` by a broadcast: entry `(i, j)` is the
  column's entry `(i, 0)` — the unit axis is read at `0`, the other axis at its own coordinate. Generic in the
  extents and in the element type.
-/
import Idealize.ShloMosaic.Lib.Pipeline.Value
import Idealize.ShloMosaic.Lib.ValueIdx
import Idealize.ShloMosaic.Lib.ValueLayout

noncomputable section

namespace Cert.ColumnLayout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnLayout

end
-- ==== Proof.BodyRead.lean ====
/-
  What the kernel's body leaves in its output block: the features of the block's 400 pillars.

  The body loads a block of 400 pillars (their points, their cell words, their counts as a column), and writes the
  output block one row of the nine at a time: row `k` through the rectangle of the block at offset (0, k, 0) and
  extents (400, 1, 32), each payload a product `A * M` cast from [400, 32] to [400, 1, 32]. `M` is the slot mask
  — the lane number compared with the count spread along the lanes, the one-bit answer widened and converted, which is
  the bit read as 0 or 1. `A` is a coordinate column of the points (a unit slice with the unit axis cast away),
  possibly less a column spread along the lanes: the cell's centre, or the lane sum from the zero word kept as a
  column and divided by the count. A lane sum from the zero word is the plain sum over the 32 slots.
  The nine rectangles tile the block, and each payload is the corresponding row of ONE function of the block index,
  so the block after the body IS that function: the features of pillars 0..399 of the block.
-/
import proofs.«151679_j24386824307259_2_alg».proof.Proof.Gen.KernelIdeal.Frame
import proofs.«151679_j24386824307259_2_alg».proof.Proof.Pillar
import proofs.«151679_j24386824307259_2_alg».proof.Proof.LibColumnLayout
import Idealize.ShloMosaic.Lib.Pipeline.Value
import Idealize.ShloMosaic.Lib.ValueIdx
import Idealize.ShloMosaic.PureOps.Ideal.Laws
import Idealize.ShloMosaic.Lib.KernelVsHost

noncomputable section

namespace Cert.KernelIdeal.BodyValue

open Cert.KernelIdeal Cert.KernelIdeal.Gen Idealize.ShloMosaic Idealize.ShloMosaic.ValueIdx
open Cert.ColumnLayout

theorem hz3 : (![0, 0, 0] : Fin 3 → Nat) = fun _ => 0 := funext fun a => by fin_cases a <;> rfl
theorem hz2 : (![0, 0] : Fin 2 → Nat) = fun _ => 0 := funext fun a => by fin_cases a <;> rfl

/-! ## Layout steps, each read at an entry -/

/-- Coordinate `a` of the points as a [400, 32] array: the unit slice at offset `a`, its unit axis cast away. -/
theorem column_apply (x0 : FVec Ideal S400x32x4 .f32) (o : ℕ) (a : Fin 4) (ho : a.val = o)
    (h : S400x32x4.Slices ![0, 0, o] S400x32x1) (q : Fin 400) (j : Fin 32) :
    shapeCast S400x32 (extractStridedSlice S400x32x1 ![0, 0, o] x0 h) shapeCasts_S400x32x1_S400x32 (ix2 q j)
      = x0 (ix3 q j a) := by
  refine (shapeCast_apply _ shapeCasts_S400x32x1_S400x32 (ix2 q j) (ix3 q j (0 : Fin 1)) ?_).trans ?_
  · rw [Shape.rowMajor_val_three, Shape.rowMajor_val_two]
    show (q.val * 32 + j.val) * 1 + 0 = q.val * 32 + j.val
    omega
  · exact extractStridedSlice_apply _ x0 h (ix3 q j (0 : Fin 1)) (ix3 q j a) (fun b => by
      match b with
      | ⟨0, _⟩ => show q.val = 0 + q.val; omega
      | ⟨1, _⟩ => show j.val = 0 + j.val; omega
      | ⟨2, _⟩ => show a.val = o + 0; omega)

/-- A [400, 32] array cast to one row of the block, [400, 1, 32]: entry (q, 0, j) is entry (q, j). -/
theorem row_cast_apply (v : FVec Ideal S400x32 .f32) (q : Fin 400) (j : Fin 32) :
    shapeCast S400x1x32 v shapeCasts_S400x32_S400x1x32 (ix3 q (0 : Fin 1) j) = v (ix2 q j) := by
  refine shapeCast_apply v shapeCasts_S400x32_S400x1x32 (ix3 q (0 : Fin 1) j) (ix2 q j) ?_
  rw [Shape.rowMajor_val_three, Shape.rowMajor_val_two]
  show q.val * 32 + j.val = (q.val * 1 + 0) * 32 + j.val
  omega

/-- A stored row that is a product cast to [400, 1, 32], read at (q, 0, j). -/
theorem row_of_product {P : FVec Ideal S400x1x32 .f32} {A M : FVec Ideal S400x32 .f32}
    (h : P = shapeCast S400x1x32 (mulf A M) shapeCasts_S400x32_S400x1x32) (q : Fin 400) (j : Fin 32) :
    P (ix3 q (0 : Fin 1) j) = A (ix2 q j) * M (ix2 q j) := by
  subst h
  exact row_cast_apply (mulf A M) q j

/-- The lane sum from the zero word, at pillar `q`: the sum over the 32 slots. -/
theorem lane_sum_apply (v : FVec Ideal S400x32 .f32) (q : Fin 400) :
    multiReduction .add [1] S400 v 0x00000000#32 reduces_S400x32_S400 (.inl rfl) rfl (ix1 q)
      = ∑ k : Fin 32, v (ix2 q k) := by
  refine (Ideal.multiReduction_add_single v 0x00000000#32 reduces_S400x32_S400 (.inl rfl) rfl (ix1 q)).trans ?_
  exact Finset.sum_congr rfl fun k _ =>
    congrArg v (funext fun a => Fin.ext (by match a with | ⟨0, _⟩ => rfl | ⟨1, _⟩ => rfl))

/-- The lane sum kept as a column and divided by a column, at (q, 0). -/
theorem mean_col_apply (u : FVec Ideal S400x32 .f32) (n : FVec Ideal S400x1 .f32) (q : Fin 400) :
    divf (shapeCast S400x1 (multiReduction .add [1] S400 u 0x00000000#32 reduces_S400x32_S400 (.inl rfl) rfl)
        shapeCasts_S400_S400x1) n (ix2 q (0 : Fin 1))
      = Ideal.div (∑ k : Fin 32, u (ix2 q k)) (n (ix2 q (0 : Fin 1))) :=
  congrArg (Ideal.div · (n (ix2 q (0 : Fin 1))))
    ((shapeCast_a_a1_apply _ shapeCasts_S400_S400x1 q (0 : Fin 1)).trans (lane_sum_apply u q))

/-- An array less a column spread along the lanes, at (q, j). -/
theorem sub_spread_apply (u : FVec Ideal S400x32 .f32) (w : FVec Ideal S400x1 .f32) (q : Fin 400) (j : Fin 32) :
    subf u (broadcastTo S400x32 w broadcasts_S400x1_S400x32) (ix2 q j) = u (ix2 q j) - w (ix2 q (0 : Fin 1)) :=
  congrArg (u (ix2 q j) - ·) (broadcastTo_a1_ab_apply w broadcasts_S400x1_S400x32 q j)

/-! ## The body's named values, read at an entry -/

variable (x0 : Vec Ideal S400x32x4 .f32) (x1 : Vec Ideal S400x4 .i32) (x2 : Vec Ideal S400x1 .i32)

theorem px_apply (q : Fin 400) (j : Fin 32) : k0_pay4 (F := Ideal) x0 (ix2 q j) = x0 (ix3 q j 0) :=
  column_apply x0 0 0 rfl _ q j
theorem py_apply (q : Fin 400) (j : Fin 32) : k0_pay5 (F := Ideal) x0 (ix2 q j) = x0 (ix3 q j 1) :=
  column_apply x0 1 1 rfl _ q j
theorem pz_apply (q : Fin 400) (j : Fin 32) : k0_pay6 (F := Ideal) x0 (ix2 q j) = x0 (ix3 q j 2) :=
  column_apply x0 2 2 rfl _ q j
theorem pw_apply (q : Fin 400) (j : Fin 32) : k0_pay7 (F := Ideal) x0 (ix2 q j) = x0 (ix3 q j 3) :=
  column_apply x0 3 3 rfl _ q j

/-- The count column converted: the count word read signed. -/
theorem count_apply (q : Fin 400) :
    k0_pay8 (F := Ideal) x2 (ix2 q (0 : Fin 1)) = (((x2 (ix2 q (0 : Fin 1))).toInt : ℝ) : EReal) := by
  show FloatOps.sitofp (F := Ideal) .f32 (shapeCast S400x1 x2 shapeCasts_S400x1_S400x1 (ix2 q (0 : Fin 1))) = _
  rw [shapeCast_self]
  rfl

/-- A cell word converted, scaled by 0.16 and moved by 0.08, at (q, 0): the centre of that cell. -/
theorem centre_apply (o : ℕ) (a : Fin 4) (ho : a.val = o) (h : S400x4.Slices ![0, o] S400x1) (q : Fin 400) :
    addf (mulf (sitofp .f32 (extractStridedSlice S400x1 ![0, o] x1 h) : FVec Ideal S400x1 .f32)
        (broadcast S400x1 (Scalar.ofBits (F := Ideal) .f32 0x3E23D70A#32)))
      (broadcast S400x1 (Scalar.ofBits (F := Ideal) .f32 0x3DA3D70A#32)) (ix2 q (0 : Fin 1))
      = Pillar.centre (x1 (ix2 q a)) := by
  show (((extractStridedSlice S400x1 ![0, o] x1 h (ix2 q (0 : Fin 1))).toInt : ℝ) : EReal)
      * Ideal.ofBits .f32 0x3E23D70A#32 + Ideal.ofBits .f32 0x3DA3D70A#32 = _
  rw [extractStridedSlice_apply ![0, o] x1 h (ix2 q (0 : Fin 1)) (ix2 q a) (fun b => by
    match b with
    | ⟨0, _⟩ => show q.val = 0 + q.val; omega
    | ⟨1, _⟩ => show a.val = o + 0; omega)]
  rfl

/-- x less the column's centre. -/
theorem offx_apply (q : Fin 400) (j : Fin 32) :
    k0_pay9 (F := Ideal) x0 x1 (ix2 q j) = x0 (ix3 q j 0) - Pillar.centre (x1 (ix2 q 1)) :=
  (sub_spread_apply (k0_pay4 x0) _ q j).trans
    (congrArg₂ (· - ·) (px_apply x0 q j) (centre_apply x1 1 1 rfl _ q))

/-- y less the row's centre. -/
theorem offy_apply (q : Fin 400) (j : Fin 32) :
    k0_pay10 (F := Ideal) x0 x1 (ix2 q j) = x0 (ix3 q j 1) - Pillar.centre (x1 (ix2 q 2)) :=
  (sub_spread_apply (k0_pay5 x0) _ q j).trans
    (congrArg₂ (· - ·) (py_apply x0 q j) (centre_apply x1 2 2 rfl _ q))

/-- x less its mean over the pillar. -/
theorem cx_apply (q : Fin 400) (j : Fin 32) :
    k0_pay11 (F := Ideal) x0 x2 (ix2 q j)
      = x0 (ix3 q j 0) - Pillar.mean (fun k => x0 (ix3 q k 0)) (x2 (ix2 q (0 : Fin 1))) :=
  (sub_spread_apply (k0_pay4 x0) _ q j).trans
    (congrArg₂ (· - ·) (px_apply x0 q j)
      ((mean_col_apply (k0_pay4 x0) (k0_pay8 x2) q).trans
        (congrArg₂ Ideal.div (Finset.sum_congr rfl fun k _ => px_apply x0 q k) (count_apply x2 q))))

/-- y less its mean over the pillar. -/
theorem cy_apply (q : Fin 400) (j : Fin 32) :
    k0_pay12 (F := Ideal) x0 x2 (ix2 q j)
      = x0 (ix3 q j 1) - Pillar.mean (fun k => x0 (ix3 q k 1)) (x2 (ix2 q (0 : Fin 1))) :=
  (sub_spread_apply (k0_pay5 x0) _ q j).trans
    (congrArg₂ (· - ·) (py_apply x0 q j)
      ((mean_col_apply (k0_pay5 x0) (k0_pay8 x2) q).trans
        (congrArg₂ Ideal.div (Finset.sum_congr rfl fun k _ => py_apply x0 q k) (count_apply x2 q))))

/-- z less its mean over the pillar. -/
theorem cz_apply (q : Fin 400) (j : Fin 32) :
    k0_pay13 (F := Ideal) x0 x2 (ix2 q j)
      = x0 (ix3 q j 2) - Pillar.mean (fun k => x0 (ix3 q k 2)) (x2 (ix2 q (0 : Fin 1))) :=
  (sub_spread_apply (k0_pay6 x0) _ q j).trans
    (congrArg₂ (· - ·) (pz_apply x0 q j)
      ((mean_col_apply (k0_pay6 x0) (k0_pay8 x2) q).trans
        (congrArg₂ Ideal.div (Finset.sum_congr rfl fun k _ => pz_apply x0 q k) (count_apply x2 q))))

/-- The slot mask: the lane number below the count, as 0 or 1. -/
theorem mask_apply (q : Fin 400) (j : Fin 32) :
    k0_pay14 (F := Ideal) (iota .tc S400x32 32 [1] iota_S400x32_d1_w32) x2 (ix2 q j)
      = Pillar.valid (x2 (ix2 q (0 : Fin 1))) j := by
  refine (congrFun (sitofp_extui_eq_uitofp (φ := .f32) (cmpi .slt (iota .tc S400x32 32 [1] iota_S400x32_d1_w32)
    (broadcastTo S400x32 (shapeCast S400x1 x2 shapeCasts_S400x1_S400x1) broadcasts_S400x1_S400x32)) natLt_1_32) (ix2 q j)).trans ?_
  have e1 : iota .tc S400x32 32 [1] iota_S400x32_d1_w32 (ix2 q j) = BitVec.ofNat 32 j.val :=
    iota_single_apply .tc S400x32 32 1 iota_S400x32_d1_w32 (ix2 q j)
  have e2 : broadcastTo S400x32 (shapeCast S400x1 x2 shapeCasts_S400x1_S400x1) broadcasts_S400x1_S400x32 (ix2 q j)
      = x2 (ix2 q (0 : Fin 1)) := by
    rw [broadcastTo_a1_ab_apply, shapeCast_self]
  show (((IntOp.cmpi .slt (iota .tc S400x32 32 [1] iota_S400x32_d1_w32 (ix2 q j))
      (broadcastTo S400x32 (shapeCast S400x1 x2 shapeCasts_S400x1_S400x1) broadcasts_S400x1_S400x32 (ix2 q j))).toNat : ℝ) : EReal) = _
  rw [e1, e2]
  rfl

/-! ## The nine stores together -/

/-- Row `k`'s rectangle sends the local index (q, 0, j) to the block index (q, k, j). -/
theorem row_emb (k : ℕ) (ch : Fin 9) (hk : ch.val = k)
    (inb : ∀ a, (![0, k, 0] : Fin 3 → Nat) a + S400x1x32.size a ≤ S400x9x32.size a) (q : Fin 400) (u : Fin 1) (j : Fin 32) :
    (Rect.unit (s := S400x9x32) ![0, k, 0] S400x1x32.size inb).emb (ix3 q u j) = ix3 q ch j := by
  funext a
  apply Fin.ext
  rw [Rect.emb_apply]
  match a with
  | ⟨0, _⟩ => show 0 + 1 * q.val = q.val; omega
  | ⟨1, _⟩ => show k + 1 * u.val = ch.val; have := u.isLt; omega
  | ⟨2, _⟩ => show 0 + 1 * j.val = j.val; omega

/-- The output block after the body is the features of the block's 400 pillars. -/
theorem out_eq :
    out0_3 (F := Ideal) x0 x1 x2 = Pillar.features (n := 400) x0 x1 (fun q => x2 (ix2 q (0 : Fin 1))) := by
  funext y
  unfold out0_3
  simp only [View.ld_unit_zero (S := S400x32x4) hz3, View.ld_unit_zero (S := S400x1) hz2, View.ld_unit_zero (S := S400x4) hz2]
  refine View.canon_apply_of_pieces (Val := Elt Ideal) (Pillar.features (n := 400) x0 x1 fun q => x2 (ix2 q (0 : Fin 1))) _ ?_ y
    (cover0_3 _ _ _ _ _ _ _ _ _ y)
  intro p hp x
  simp only [List.mem_cons, List.not_mem_nil, or_false] at hp
  rcases hp with rfl | rfl | rfl | rfl | rfl | rfl | rfl | rfl | rfl
  all_goals
    obtain ⟨q, u, j, rfl⟩ : ∃ (q : Fin 400) (u : Fin 1) (j : Fin 32), x = ix3 q u j := ⟨x 0, x 1, x 2, eq_ix3 x⟩
    obtain rfl : u = 0 := Fin.ext (by have := u.isLt; omega)
  · rw [row_emb 8 8 rfl _ q 0 j, Pillar.features_apply]
    exact (row_of_product rfl q j).trans (congrArg₂ (· * ·) (offy_apply x0 x1 q j) (mask_apply x2 q j))
  · rw [row_emb 7 7 rfl _ q 0 j, Pillar.features_apply]
    exact (row_of_product rfl q j).trans (congrArg₂ (· * ·) (offx_apply x0 x1 q j) (mask_apply x2 q j))
  · rw [row_emb 6 6 rfl _ q 0 j, Pillar.features_apply]
    exact (row_of_product rfl q j).trans (congrArg₂ (· * ·) (cz_apply x0 x2 q j) (mask_apply x2 q j))
  · rw [row_emb 5 5 rfl _ q 0 j, Pillar.features_apply]
    exact (row_of_product rfl q j).trans (congrArg₂ (· * ·) (cy_apply x0 x2 q j) (mask_apply x2 q j))
  · rw [row_emb 4 4 rfl _ q 0 j, Pillar.features_apply]
    exact (row_of_product rfl q j).trans (congrArg₂ (· * ·) (cx_apply x0 x2 q j) (mask_apply x2 q j))
  · rw [row_emb 3 3 rfl _ q 0 j, Pillar.features_apply]
    exact (row_of_product rfl q j).trans (congrArg₂ (· * ·) (pw_apply x0 q j) (mask_apply x2 q j))
  · rw [row_emb 2 2 rfl _ q 0 j, Pillar.features_apply]
    exact (row_of_product rfl q j).trans (congrArg₂ (· * ·) (pz_apply x0 q j) (mask_apply x2 q j))
  · rw [row_emb 1 1 rfl _ q 0 j, Pillar.features_apply]
    exact (row_of_product rfl q j).trans (congrArg₂ (· * ·) (offy_apply x0 x1 q j) (mask_apply x2 q j))
  · rw [row_emb 0 0 rfl _ q 0 j, Pillar.features_apply]
    exact (row_of_product rfl q j).trans (congrArg₂ (· * ·) (offx_apply x0 x1 q j) (mask_apply x2 q j))

end Cert.KernelIdeal.BodyValue

end
-- ==== Proof.ArrayValue.lean ====
/-
  From the blocks to the array: after the run the kernel's result array holds the features of the 200000 pillars.

  The grid has 500 points; at point `t` every window's block is rows `400 t .. 400 t + 399` of its array (block
  index `t` on the pillar axis, `0` on the others). So pillar `q` of the block at point `t` is pillar `400 t + q`
  of the arrays: its 32 points, its four cell words, and its count — the count column the region finds being the
  count vector reshaped to one column by the host before the region. A pillar's features depend on that pillar's
  data only, so what point `t` writes back is block `t` of the features of all 200000 pillars; the 500 blocks
  cover the array (pillar `p` lies in block `p / 400`), hence the array ends holding exactly those features.
-/
import proofs.«151679_j24386824307259_2_alg».proof.Proof.Gen.KernelIdeal.Value
import proofs.«151679_j24386824307259_2_alg».proof.Proof.BodyRead
import Idealize.ShloMosaic.Lib.Pipeline.Value
import Idealize.ShloMosaic.Lib.StableHlo.Run

noncomputable section

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx Cert.ColumnLayout
open Idealize.ShloMosaic.Pipeline (Dat)

variable (m : (ℓ : Loc nD τ sig) → Buf (Elt Ideal) ℓ) (ρ : Dev nD → PrngReg)

/-- The features of the 200000 pillars of the argument arrays as launched. -/
def result (c : Dev nD) : S200000x9x32.Idx → EReal :=
  Pillar.features (n := 200000) (m ((c : Thread nD τ).loc main_arg0)) (m ((c : Thread nD τ).loc main_arg1))
    (fun p => m ((c : Thread nD τ).loc main_arg2) (ix1 p))

/-- The printed index maps, decided over the 500 points: block index `t` on the pillar axis, 0 elsewhere. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The count column the region finds: the count vector reshaped to [200000, 1] by the host. -/
theorem counts_column (c : Dev nD) :
    (V m c main_v0 : S200000x1.Idx → BitVec 32)
      = shapeCast S200000x1 (m ((c : Thread nD τ).loc main_arg2)) shapeCasts_S200000_S200000x1 := by
  dsimp only [V, hostOps0]
  after_results
  rfl

/-! ## The input blocks as rows of the arrays -/

theorem points_block (c : Dev nD) (t : Fin cfg0.N) (q : Fin 400) (k : Fin 32) (a : Fin 4) (p : Fin 200000)
    (hp : p.val = 400 * t.val + q.val) :
    (iblk m c 0 t : Vec Ideal S400x32x4 .f32) (ix3 q k a)
      = (m ((c : Thread nD τ).loc main_arg0) : S200000x32x4.Idx → EReal) (ix3 p k a) := by
  obtain ⟨e0, e1, e2, -⟩ := idx_facts t
  unfold iblk
  rw [View.read_apply]
  show V m c main_arg0 _ = _
  rw [V_main_arg0]
  refine congrArg (m ((c : Thread nD τ).loc main_arg0) : S200000x32x4.Idx → EReal) (funext fun d => Fin.ext ?_)
  match d with
  | ⟨0, _⟩ => show win0_0.index t (0 : Fin 3) * 400 + 1 * q.val = p.val; rw [e0, hp]; omega
  | ⟨1, _⟩ => show win0_0.index t (1 : Fin 3) * 32 + 1 * k.val = k.val; rw [e1]; omega
  | ⟨2, _⟩ => show win0_0.index t (2 : Fin 3) * 4 + 1 * a.val = a.val; rw [e2]; omega

theorem cells_block (c : Dev nD) (t : Fin cfg0.N) (q : Fin 400) (a : Fin 4) (p : Fin 200000)
    (hp : p.val = 400 * t.val + q.val) :
    (iblk m c 1 t : Vec Ideal S400x4 .i32) (ix2 q a)
      = (m ((c : Thread nD τ).loc main_arg1) : S200000x4.Idx → BitVec 32) (ix2 p a) := by
  obtain ⟨-, -, -, e0, e1, -⟩ := idx_facts t
  unfold iblk
  rw [View.read_apply]
  show V m c main_arg1 _ = _
  rw [V_main_arg1]
  refine congrArg (m ((c : Thread nD τ).loc main_arg1) : S200000x4.Idx → BitVec 32) (funext fun d => Fin.ext ?_)
  match d with
  | ⟨0, _⟩ => show win0_1.index t (0 : Fin 2) * 400 + 1 * q.val = p.val; rw [e0, hp]; omega
  | ⟨1, _⟩ => show win0_1.index t (1 : Fin 2) * 4 + 1 * a.val = a.val; rw [e1]; omega

theorem counts_block (c : Dev nD) (t : Fin cfg0.N) (q : Fin 400) (p : Fin 200000)
    (hp : p.val = 400 * t.val + q.val) :
    (iblk m c 2 t : Vec Ideal S400x1 .i32) (ix2 q (0 : Fin 1))
      = (m ((c : Thread nD τ).loc main_arg2) : S200000.Idx → BitVec 32) (ix1 p) := by
  obtain ⟨-, -, -, -, -, e0, e1, -⟩ := idx_facts t
  unfold iblk
  rw [View.read_apply]
  show (V m c main_v0 : S200000x1.Idx → BitVec 32) _ = _
  rw [counts_column]
  refine (congrArg (shapeCast S200000x1 (m ((c : Thread nD τ).loc main_arg2)) shapeCasts_S200000_S200000x1)
    (funext fun d => Fin.ext ?_ : _ = ix2 p (0 : Fin 1))).trans (shapeCast_a_a1_apply _ _ p 0)
  match d with
  | ⟨0, _⟩ => show win0_2.index t (0 : Fin 2) * 400 + 1 * q.val = p.val; rw [e0, hp]; omega
  | ⟨1, _⟩ => show win0_2.index t (1 : Fin 2) * 1 + 1 * 0 = 0; rw [e1]

/-! ## What each point writes back, the cover, the array -/

/-- Point `t` writes back block `t` of `result`. -/
theorem flushed_eq (c : Dev nD) (t : Fin cfg0.N) :
    (dats m 0 c).flushed 3 t = ((cfg0.win 3).blk t).view.read (Elt Ideal) (result m c) := by
  have hN : cfg0.N = 500 := N_0
  obtain ⟨-, -, -, -, -, -, -, e0, e1, e2⟩ := idx_facts t
  show (cfg0.win 3).cut (grid0.coords t) ((dats m 0 c).after 3 t) = _
  rw [after0_3, BodyValue.out_eq (iblk m c 0 t) (iblk m c 1 t) (iblk m c 2 t)]
  funext y
  obtain ⟨q, ch, j, rfl⟩ : ∃ (q : Fin 400) (ch : Fin 9) (j : Fin 32), y = ix3 q ch j := ⟨y 0, y 1, y 2, eq_ix3 y⟩
  have ht : t.val < 500 := hN ▸ t.isLt
  let p : Fin 200000 := ⟨400 * t.val + q.val, by have := q.isLt; omega⟩
  have e : ((cfg0.win 3).blk t).view.emb (ix3 q ch j) = ix3 p ch j := by
    funext d
    apply Fin.ext
    match d with
    | ⟨0, _⟩ => show win0_3.index t (0 : Fin 3) * 400 + 1 * q.val = 400 * t.val + q.val; rw [e0]; omega
    | ⟨1, _⟩ => show win0_3.index t (1 : Fin 3) * 9 + 1 * ch.val = ch.val; rw [e1]; omega
    | ⟨2, _⟩ => show win0_3.index t (2 : Fin 3) * 32 + 1 * j.val = j.val; rw [e2]; omega
  show Pillar.features (n := 400) (iblk m c 0 t) (iblk m c 1 t) (fun q => iblk m c 2 t (ix2 q (0 : Fin 1))) (ix3 q ch j)
    = result m c (((cfg0.win 3).blk t).view.emb (ix3 q ch j))
  rw [e, Pillar.features_apply]
  unfold result
  rw [Pillar.features_apply]
  exact Pillar.feat_congr (fun k a => points_block m c t q k a p rfl) (fun a => cells_block m c t q a p rfl)
    (counts_block m c t q p rfl) ch j

/-- Every index of the result array lies in some point's block: pillar `p` in block `p / 400`. -/
theorem cover (i : S200000x9x32.Idx) :
    ∃ t : Fin cfg0.N, (cfg0.win 3).flush t = true ∧ i ∈ ((cfg0.win 3).blk t).view.set := by
  have hN : cfg0.N = 500 := N_0
  have h0 : (i 0).val < 200000 := (i 0).isLt
  have h1 : (i 1).val < 9 := (i 1).isLt
  have h2 : (i 2).val < 32 := (i 2).isLt
  have ht : (i 0).val / 400 < cfg0.N := by rw [hN]; omega
  refine ⟨⟨(i 0).val / 400, ht⟩, flush0_3 _, ?_⟩
  obtain ⟨-, -, -, -, -, -, -, e0, e1, e2⟩ := idx_facts ⟨(i 0).val / 400, ht⟩
  show i ∈ ((View.whole main_v1).slice (win0_3.rect ⟨(i 0).val / 400, ht⟩)).set
  rw [View.set_slice_whole, Rect.mem_set_unit]
  intro a
  match a with
  | ⟨0, _⟩ =>
    show win0_3.index ⟨(i 0).val / 400, ht⟩ (0 : Fin 3) * 400 ≤ (i 0).val
      ∧ (i 0).val < win0_3.index ⟨(i 0).val / 400, ht⟩ (0 : Fin 3) * 400 + 400
    rw [e0]
    show (i 0).val / 400 * 400 ≤ (i 0).val ∧ (i 0).val < (i 0).val / 400 * 400 + 400
    omega
  | ⟨1, _⟩ =>
    show win0_3.index ⟨(i 0).val / 400, ht⟩ (1 : Fin 3) * 9 ≤ (i 1).val
      ∧ (i 1).val < win0_3.index ⟨(i 0).val / 400, ht⟩ (1 : Fin 3) * 9 + 9
    rw [e1]; omega
  | ⟨2, _⟩ =>
    show win0_3.index ⟨(i 0).val / 400, ht⟩ (2 : Fin 3) * 32 ≤ (i 2).val
      ∧ (i 2).val < win0_3.index ⟨(i 0).val / 400, ht⟩ (2 : Fin 3) * 32 + 32
    rw [e2]; omega

/-- The result array after the run. -/
theorem final (c : Dev nD) : (dats m 0 c).arrAt 3 cfg0.N = result m c :=
  (dats m 0 c).arrAt_eq_of_cover 3 (result m c) (fun t _ => flushed_eq m c t) cover

/-- The kernel's run, read: the result array at the features of the pillars, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/-
  The pillar feature encoder: the kernel against its reference, on the extended reals.

  Arguments: 200000 pillars of 32 point slots (x, y, z, w), four integer cell words per pillar, one count word per
  pillar. Results: the cell words unchanged, and a [200000, 9, 32] array of features. For pillar `p`, slot `j`:
  rows 0 and 7 hold x - cx, rows 1 and 8 hold y - cy (cx, cy the centres of the pillar's column and row: cell word
  times 0.16 plus 0.08), rows 2 and 3 hold z and w, rows 4 to 6 hold x, y, z less their means over the pillar (the
  sum over all 32 slots divided by the count), every row multiplied by 1 on the slots below the count and by 0 on
  the padding slots (`Pillar.feat`, Proof/Pillar.lean).

  The kernel computes this on blocks of 400 pillars, one grid point per block, writing the nine rows of the output
  block one by one (Proof/BodyRead.lean); a pillar's features use that pillar's data only, so each point writes back
  its block of the features of all pillars, and the 500 blocks cover the array (Proof/ArrayValue.lean). The
  reference computes the same numbers on whole arrays — the rows laid side by side along a last axis, multiplied by
  the mask, then transposed — (Proof/RefRead.lean). Both sides apply the same operations in the same order to the
  same operands: the lane sum and the host's sum are both the sum over the 32 slots (the zero start adds nothing),
  the two divisions are the extended reals' one division, the scale words 0.16 and 0.08 are the same f32 words on
  both sides, and a one-bit comparison widened and converted signed is the bit converted unsigned. No step moves a
  factor across a sum or cancels anything, so the two results are equal at every extended real and finiteness of the
  inputs is never used. The idealization rewrote no operation of the kernel, so nothing is to be preserved beyond
  the program's own text.
-/
import proofs.«151679_j24386824307259_2_alg».proof.Defs
import proofs.«151679_j24386824307259_2_alg».proof.Proof.Gen.Kernel
import proofs.«151679_j24386824307259_2_alg».proof.Proof.Gen.Kernel.Skeleton
import proofs.«151679_j24386824307259_2_alg».proof.Proof.Gen.Kernel.Launch
import proofs.«151679_j24386824307259_2_alg».proof.Proof.Gen.Kernel.Points
import proofs.«151679_j24386824307259_2_alg».proof.Proof.Gen.Kernel.Frame
import proofs.«151679_j24386824307259_2_alg».proof.Proof.Gen.KernelIdeal
import proofs.«151679_j24386824307259_2_alg».proof.Proof.Gen.KernelIdeal.Skeleton
import proofs.«151679_j24386824307259_2_alg».proof.Proof.Gen.KernelIdeal.Launch
import proofs.«151679_j24386824307259_2_alg».proof.Proof.Gen.KernelIdeal.Points
import proofs.«151679_j24386824307259_2_alg».proof.Proof.Gen.KernelIdeal.Frame
import proofs.«151679_j24386824307259_2_alg».proof.Proof.Gen.ReferenceIdeal
import proofs.«151679_j24386824307259_2_alg».proof.Proof.Gen.Pre_finite_inputs
import proofs.«151679_j24386824307259_2_alg».proof.Proof.Gen.KernelIdeal.Value
import proofs.«151679_j24386824307259_2_alg».proof.Proof.Gen.ReferenceIdeal.Run
import proofs.«151679_j24386824307259_2_alg».proof.Proof.Gen.ReferenceIdeal.Read
import proofs.«151679_j24386824307259_2_alg».proof.Proof.RefRead
import proofs.«151679_j24386824307259_2_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the arguments both programs end with the cell words as launched and the features of
    the 200000 pillars. -/
theorem algebraic : Cert.algebraic_KernelIdeal_ReferenceIdeal := by
  intro m ρ m' ρ' _ hagree
  refine ⟨fun c => m ((c : Thread Cert.KernelIdeal.nD Cert.KernelIdeal.τ).loc Cert.KernelIdeal.main_arg1),
    fun c => Cert.KernelIdeal.ArrayValue.result m c, ?_, ?_⟩
  · refine (θ_run Cert.KernelIdeal.defs _ _).mono (fun r h c => ?_) (Cert.KernelIdeal.ArrayValue.run m ρ)
    exact ⟨(h c).2.2.1, (h c).1, (h c).2.1, (h c).2.2.1, (h c).2.2.2⟩
  · refine (θ_run Cert.ReferenceIdeal.defs _ _).mono (fun r h c => ?_) (Cert.ReferenceIdeal.Value.run (F := Ideal) m' ρ')
    refine ⟨(h c).1.trans (hagree c).2.1, (h c).2.1.trans ?_, (h c).2.2⟩
    refine ((Cert.ReferenceIdeal.Read.val_main_v42_eq (F := Ideal) _ _ _).trans
      (Cert.ReferenceIdeal.RefValue.result_eq _ _ _)).trans ?_
    unfold Cert.KernelIdeal.ArrayValue.result
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
